-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S8388608x1 : Shape := ⟨2, ![8388608, 1]⟩
abbrev S8388608 : Shape := ⟨1, ![8388608]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel
  bcast_S_S8388608x1 : S_.BroadcastsInDim S8388608x1 (![] : Fin 0 → Fin S8388608x1.rank)
  reducesTo_S8388608x1_S_d0_1 : S8388608x1.ReducesTo [0, 1] S_
  bcast_S_S8388608 : S_.BroadcastsInDim S8388608 (![] : Fin 0 → Fin S8388608.rank)
  reducesTo_S8388608_S_d0 : S8388608.ReducesTo [0] S_

variable [Facts]

def fn {F : FTy → Type} [FloatOps F] (main_arg0 : FVec F S8388608x2 .f32) (main_arg1 : FVec F S8388608x1 .f32) (main_arg2 : FVec F S8388608 .f32) (main_arg3 : IVec S8388608 32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S8388608x1 .f32 := Host.absf main_arg1
  let main_cst_0 : FVec F S_ .f32 := constant S_ .f32 0x7F800000#32
  let main_v5 : FVec F S8388608x1 .f32 := broadcastInDim S8388608x1 ![] bcast_S_S8388608x1 main_cst_0
  let main_v6 : IVec S8388608x1 1 := cmpf .olt main_v4 main_v5
  let main_c_1 : IVec S_ 1 := constantI S_ 1 1#1
  let main_v7 : IVec S_ 1 := (fun x v => Host.reduce IntOp.andi x v reducesTo_S8388608x1_S_d0_1 h_S_) main_v6 main_c_1
  let main_v8 : IVec S_ 1 := andi main_v3 main_v7
  let main_v9 : FVec F S8388608 .f32 := Host.absf main_arg2
  let main_cst_2 : FVec F S_ .f32 := constant S_ .f32 0x7F800000#32
  let main_v10 : FVec F S8388608 .f32 := broadcastInDim S8388608 ![] bcast_S_S8388608 main_cst_2
  let main_v11 : IVec S8388608 1 := cmpf .olt main_v9 main_v10
  let main_c_3 : IVec S_ 1 := constantI S_ 1 1#1
  let main_v12 : IVec S_ 1 := (fun x v => Host.reduce IntOp.andi x v reducesTo_S8388608_S_d0 h_S_) main_v11 main_c_3
  let main_v13 : IVec S_ 1 := andi main_v8 main_v12
  main_v13
-- ==== Kernel.lean ====
abbrev S8388608x2 : Shape := ⟨2, ![8388608, 2]⟩
abbrev S8388608x1 : Shape := ⟨2, ![8388608, 1]⟩
abbrev S8388608 : Shape := ⟨1, ![8388608]⟩
abbrev S1x4 : Shape := ⟨2, ![1, 4]⟩
abbrev S4096x2 : Shape := ⟨2, ![4096, 2]⟩
abbrev S4096x1 : Shape := ⟨2, ![4096, 1]⟩
abbrev S1 : Shape := ⟨1, ![1]⟩
abbrev S1x1 : Shape := ⟨2, ![1, 1]⟩
abbrev S_ : Shape := ⟨0, ![]⟩

abbrev nBuf : Space → Nat
  | .hbm => 34
  | .vmem => 9
  | .smem => 0
  | _ => 0

abbrev bufTy : (tb : Table) → Fin (tcTables nBuf tb) → BufTy
  | .hbm, ⟨0, _⟩ => ⟨S8388608x2, .f32⟩
  | .hbm, ⟨1, _⟩ => ⟨S8388608x1, .f32⟩
  | .hbm, ⟨2, _⟩ => ⟨S8388608, .f32⟩
  | .hbm, ⟨3, _⟩ => ⟨S8388608, .i32⟩
  | .hbm, ⟨4, _⟩ => ⟨S8388608x1, .f32⟩
  | .hbm, ⟨5, _⟩ => ⟨S8388608x1, .i32⟩
  | .hbm, ⟨6, _⟩ => ⟨S1x4, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S4096x2, .f32⟩
  | .local _ .vmem, ⟨1, _⟩ => ⟨S4096x2, .f32⟩
  | .local _ .vmem, ⟨2, _⟩ => ⟨S4096x1, .f32⟩
  | .local _ .vmem, ⟨3, _⟩ => ⟨S4096x1, .f32⟩
  | .local _ .vmem, ⟨4, _⟩ => ⟨S4096x1, .f32⟩
  | .local _ .vmem, ⟨5, _⟩ => ⟨S4096x1, .f32⟩
  | .local _ .vmem, ⟨6, _⟩ => ⟨S4096x1, .i32⟩
  | .local _ .vmem, ⟨7, _⟩ => ⟨S4096x1, .i32⟩
  | .local _ .vmem, ⟨8, _⟩ => ⟨S1x4, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S8388608_S8388608x1 : S8388608.ShapeCasts S8388608x1
  inb_S1x4_S1x4_0_0 : ∀ a, (![0, 0] : Fin 2 → Nat) a + S1x4.size a ≤ S1x4.size a
  h_S1x4 : 0 < S1x4.numel
  inb_S4096x2_S4096x2_0_0 : ∀ a, (![0, 0] : Fin 2 → Nat) a + S4096x2.size a ≤ S4096x2.size a
  h_S4096x2 : 0 < S4096x2.numel
  slices_S4096x2_o0_0_S4096x1 : S4096x2.Slices ![0, 0] S4096x1
  slices_S4096x2_o0_1_S4096x1 : S4096x2.Slices ![0, 1] S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x1_S1 : S4096x1.Reduces [0] S1
  shapeCasts_S1_S1x1 : S1.ShapeCasts S1x1
  concatenates_S1x1_S1x1_S1x1_S1x1_S1x4_d1 : Shape.Concatenates [S1x1, S1x1, S1x1, S1x1] S1x4 1
  shapeCasts_S1x4_S1x4 : S1x4.ShapeCasts S1x4
  slices_S1x4_S1x1_0_0 : S1x4.Slices ![0, 0] S1x1
  shapeCasts_S1x1_S_ : S1x1.ShapeCasts S_
  slices_S1x4_S1x1_0_1 : S1x4.Slices ![0, 1] S1x1
  slices_S1x4_S1x1_0_2 : S1x4.Slices ![0, 2] S1x1
  slices_S1x4_S1x1_0_3 : S1x4.Slices ![0, 3] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x2.size a ≤ S8388608x2.size a
  hwx0_0 : ∀ i : grid0.Coords, EltTy.bits .f32 = 32 ∨ (Rect.block (s := S8388608x2) S4096x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S8388608x1.size a
  hwx0_1 : ∀ i : grid0.Coords, EltTy.bits .f32 = 32 ∨ (Rect.block (s := S8388608x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S8388608x1.size a
  hwx0_2 : ∀ i : grid0.Coords, EltTy.bits .f32 = 32 ∨ (Rect.block (s := S8388608x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S8388608x1.size a
  hwx0_3 : ∀ i : grid0.Coords, EltTy.bits .i32 = 32 ∨ (Rect.block (s := S8388608x1) S4096x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)

variable [Facts₀]

abbrev win0_0 : Pipeline.Window sig grid0 :=
  Pipeline.Window.ofSpec (Memref.whole main_arg0) S4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x4.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S8388608x1 : Shape := ⟨2, ![8388608, 1]⟩
abbrev S8388608 : Shape := ⟨1, ![8388608]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S8388608x1, .f32⟩
  | .hbm, ⟨2, _⟩ => ⟨S8388608, .f32⟩
  | .hbm, ⟨3, _⟩ => ⟨S8388608, .i32⟩
  | .hbm, ⟨4, _⟩ => ⟨S8388608x1, .f32⟩
  | .hbm, ⟨5, _⟩ => ⟨S8388608x1, .f32⟩
  | .hbm, ⟨6, _⟩ => ⟨S8388608x1, .f32⟩
  | .hbm, ⟨7, _⟩ => ⟨S_, .f32⟩
  | .hbm, ⟨8, _⟩ => ⟨S8388608x1, .f32⟩
  | .hbm, ⟨9, _⟩ => ⟨S8388608x1, .f32⟩
  | .hbm, ⟨10, _⟩ => ⟨S8388608x1, .f32⟩
  | .hbm, ⟨11, _⟩ => ⟨S8388608x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8388608x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8388608x1, .f32⟩
  | .hbm, ⟨22, _⟩ => ⟨S_, .f32⟩
  | .hbm, ⟨23, _⟩ => ⟨S8388608x1, .f32⟩
  | .hbm, ⟨24, _⟩ => ⟨S8388608x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8388608, .f32⟩
  | .hbm, ⟨30, _⟩ => ⟨S8388608, .f32⟩
  | .hbm, ⟨31, _⟩ => ⟨S8388608, .f32⟩
  | .hbm, ⟨32, _⟩ => ⟨S_, .f32⟩
  | .hbm, ⟨33, _⟩ => ⟨S8388608, .f32⟩
  | .hbm, ⟨34, _⟩ => ⟨S8388608, .f32⟩
  | .hbm, ⟨35, _⟩ => ⟨S_, .i32⟩
  | .hbm, ⟨36, _⟩ => ⟨S8388608, .i32⟩
  | .hbm, ⟨37, _⟩ => ⟨S8388608, .i1⟩
  | .hbm, ⟨38, _⟩ => ⟨S8388608, .f32⟩
  | .hbm, ⟨39, _⟩ => ⟨S_, .f32⟩
  | .hbm, ⟨40, _⟩ => ⟨S8388608, .f32⟩
  | .hbm, ⟨41, _⟩ => ⟨S8388608, .f32⟩
  | .hbm, ⟨42, _⟩ => ⟨S8388608, .f32⟩
  | .hbm, ⟨43, _⟩ => ⟨S_, .f32⟩
  | .hbm, ⟨44, _⟩ => ⟨S8388608, .f32⟩
  | .hbm, ⟨45, _⟩ => ⟨S8388608, .f32⟩
  | .hbm, ⟨46, _⟩ => ⟨S8388608, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_call1_cst : Ref sig .tc := ⟨.hbm, 43, rfl⟩
abbrev main_call1_v0 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_v34 : Ref sig .tc := ⟨.hbm, 56, rfl⟩
abbrev main_cst_12 : Ref sig .tc := ⟨.hbm, 57, rfl⟩
abbrev main_v35 : Ref sig .tc := ⟨.hbm, 58, rfl⟩
abbrev main_cst_13 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  slices_S8388608x2_S8388608x1_0_0 : S8388608x2.Slices ![0, 0] S8388608x1
  slices_S8388608x2_S8388608x1_0_1 : S8388608x2.Slices ![0, 1] S8388608x1
  bcast_S_S8388608x1 : S_.BroadcastsInDim S8388608x1 (![] : Fin 0 → Fin S8388608x1.rank)
  reducesTo_S8388608x1_S_d0_1 : S8388608x1.ReducesTo [0, 1] S_
  h_S_ : 0 < S_.numel
  shapeCasts_S8388608x1_S8388608 : S8388608x1.ShapeCasts S8388608
  bcast_S_S8388608 : S_.BroadcastsInDim S8388608 (![] : Fin 0 → Fin S8388608.rank)
  reducesTo_S8388608_S_d0 : S8388608.ReducesTo [0] S_

variable [Facts₀]

class Facts : Prop extends Facts₀ where

variable [Facts]
-- ==== Proof.LibColReduce.lean ====
/-
  Columns of a matrix on the extended reals: a reduction over the ROWS of an `[a, b]` matrix, read at column `q`.

  • The sum over axis 0 is the `Fin a`-indexed sum of the column's entries.
  • The maximum over axis 0 is the fold of `max` over the column's entries from the accumulator's value.
  • A `[1, 1]` value broadcast down a column `[a, 1]`, a column `[a, 1]` broadcast across `[a, b]`, and a `[1, 1]`
    value broadcast along a row `[1, b]`, each read at an entry.
  • The f32 word of `-∞` denotes `⊥`.
-/
import Idealize.ShloMosaic.Lib.Pipeline.Value
import Idealize.ShloMosaic.Lib.ValueIdx
import Idealize.ShloMosaic.PureOps.Ideal.Laws

namespace Cert.ColReduce

open Idealize.ShloMosaic Idealize.ShloMosaic.ValueIdx
open scoped BigOperators

/-- The sum over the rows, at a column. -/
theorem multiReduction_add_cols {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => ?_
  exact congrArg src (funext fun c => Fin.ext (by match c with | ⟨0, _⟩ => rfl | ⟨1, _⟩ => rfl))

/-- The maximum over the rows, at a column: the fold of `max` from the accumulator's value. -/
theorem multiReduction_max_cols {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) (fun k => src (ix2 k q)) := by
  refine (Ideal.multiReduction_maximumf_single src acc h hφ hacc (ix1 q)).trans ?_
  refine congrArg (Finset.fold max _ · _) (funext fun k => ?_)
  exact congrArg src (funext fun c => Fin.ext (by match c with | ⟨0, _⟩ => rfl | ⟨1, _⟩ => rfl))

variable {α : Type}

/-- A `[1, 1]` value broadcast down a column. -/
theorem broadcastTo_11_a1 {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- A `[1, 1]` value broadcast along a row. -/
theorem broadcastTo_11_1b {b : ℕ} (v : (⟨2, ![1, 1]⟩ : Shape).Idx → α) (h : (⟨2, ![1, 1]⟩ : Shape).Broadcasts ⟨2, ![1, b]⟩)
    (u : Fin 1) (q : Fin b) : broadcastTo ⟨2, ![1, b]⟩ v h (ix2 u q) = v (ix2 (0 : Fin 1) (0 : Fin 1)) := by
  refine broadcastTo_apply v h (ix2 u q) (ix2 (0 : Fin 1) (0 : Fin 1)) fun ax => ?_
  match ax with
  | ⟨0, _⟩ => rfl
  | ⟨1, _⟩ => rfl

/-- A column broadcast across the columns of a matrix. -/
theorem broadcastTo_a1_ab {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A one-entry vector as a `[1, 1]` matrix. -/
theorem shapeCast_1_11 (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show 0 = u.val * 1 + v.val
    omega)

/-- The f32 word `0xFF800000` denotes `-∞`. -/
theorem ofBits_neg_inf_f32 : Ideal.ofBits .f32 0xFF800000#32 = ⊥ := by
  simp [Ideal.ofBits, Ideal.ieee]

end Cert.ColReduce
-- ==== Proof.LibRowJoin.lean ====
/-
  Four one-entry matrices joined along the columns into a [1, 4] row, read at each entry: entry (0, q) of the
  join is the one entry of piece q.  (The join places the pieces side by side along axis 1; each piece spans one
  column, so column q lies in piece q, after q columns of the pieces before it.)
-/
import Idealize.ShloMosaic.Lib.Pipeline.Value
import Idealize.ShloMosaic.Lib.ValueIdx

namespace Cert.RowJoin

open Idealize.ShloMosaic Idealize.ShloMosaic.ValueIdx

variable {α : Type}

/-- A one-entry matrix, and a row of four. -/
abbrev S11 : Shape := ⟨2, ![1, 1]⟩
abbrev S14 : Shape := ⟨2, ![1, 4]⟩

/-- The four pieces, in order. -/
abbrev pieces (v0 v1 v2 v3 : S11.Idx → α) : List ((s : Shape) × (s.Idx → α)) :=
  [⟨S11, v0⟩, ⟨S11, v1⟩, ⟨S11, v2⟩, ⟨S11, v3⟩]

/-- Off the joined axis a piece's index and the row's index agree: both are row 0. -/
private theorem off_axis (q : Fin 4) (b : Fin S11.rank) (hb : b.cast (rfl : S11.rank = S14.rank) ≠ (1 : Fin 2)) :
    ((ix2 (0 : Fin 1) (0 : Fin 1) : S11.Idx) b).val = ((ix2 (0 : Fin 1) q : S14.Idx) (b.cast rfl)).val := by
  match b with
  | ⟨0, _⟩ => rfl
  | ⟨1, _⟩ => exact absurd rfl hb

theorem join4_0 (v0 v1 v2 v3 : S11.Idx → α) (h : Shape.Concatenates [S11, S11, S11, S11] S14 1) :
    concatenate S14 1 [⟨S11, v0⟩, ⟨S11, v1⟩, ⟨S11, v2⟩, ⟨S11, v3⟩] h (ix2 (0 : Fin 1) (0 : Fin 4))
      = v0 (ix2 (0 : Fin 1) (0 : Fin 1)) :=
  concatenate_apply_piece (t := S14) (1 : Fin 2) (pieces v0 v1 v2 v3) h _ 0 (by show 0 < 4; omega) S11 v0 rfl rfl 0 (by simp) (ix2 (0 : Fin 1) (0 : Fin 1))
    (off_axis 0) rfl

theorem join4_1 (v0 v1 v2 v3 : S11.Idx → α) (h : Shape.Concatenates [S11, S11, S11, S11] S14 1) :
    concatenate S14 1 [⟨S11, v0⟩, ⟨S11, v1⟩, ⟨S11, v2⟩, ⟨S11, v3⟩] h (ix2 (0 : Fin 1) (1 : Fin 4))
      = v1 (ix2 (0 : Fin 1) (0 : Fin 1)) :=
  concatenate_apply_piece (t := S14) (1 : Fin 2) (pieces v0 v1 v2 v3) h _ 1 (by show 1 < 4; omega) S11 v1 rfl rfl 1 (by simp) (ix2 (0 : Fin 1) (0 : Fin 1))
    (off_axis 1) rfl

theorem join4_2 (v0 v1 v2 v3 : S11.Idx → α) (h : Shape.Concatenates [S11, S11, S11, S11] S14 1) :
    concatenate S14 1 [⟨S11, v0⟩, ⟨S11, v1⟩, ⟨S11, v2⟩, ⟨S11, v3⟩] h (ix2 (0 : Fin 1) (2 : Fin 4))
      = v2 (ix2 (0 : Fin 1) (0 : Fin 1)) :=
  concatenate_apply_piece (t := S14) (1 : Fin 2) (pieces v0 v1 v2 v3) h _ 2 (by show 2 < 4; omega) S11 v2 rfl rfl 2 (by simp) (ix2 (0 : Fin 1) (0 : Fin 1))
    (off_axis 2) rfl

theorem join4_3 (v0 v1 v2 v3 : S11.Idx → α) (h : Shape.Concatenates [S11, S11, S11, S11] S14 1) :
    concatenate S14 1 [⟨S11, v0⟩, ⟨S11, v1⟩, ⟨S11, v2⟩, ⟨S11, v3⟩] h (ix2 (0 : Fin 1) (3 : Fin 4))
      = v3 (ix2 (0 : Fin 1) (0 : Fin 1)) :=
  concatenate_apply_piece (t := S14) (1 : Fin 2) (pieces v0 v1 v2 v3) h _ 3 (by show 3 < 4; omega) S11 v3 rfl rfl 3 (by simp) (ix2 (0 : Fin 1) (0 : Fin 1))
    (off_axis 3) rfl

end Cert.RowJoin
-- ==== Proof.LibBlockedDense.lean ====
/-
  A dense layer against rows, y = x · wᵀ + b, read at an entry, and the same entry with the contraction cut into
  consecutive blocks.

  For x : [A, K], w : [C, K] and b : [C] the entry (r, q) of the layer is (Σ_{k < K} x(r,k) · w(q,k)) + b(q)
  on the extended reals (dense). When K = J · Kb the contraction splits into J consecutive blocks of Kb
  coordinates, Σ_{k < K} f k = Σ_{s < J} Σ_{u < Kb} f (Kb·s + u) (sum_blocks): nothing but commutativity and
  associativity of +, so it holds in any additive commutative monoid, the extended reals with their infinities
  included, and no entry has to be finite. An accumulator that starts from the zero word and adds one block's partial
  product per step therefore ends at the layer's entry before the bias is added (dense_blocked).

  Entries are addressed by NATURAL coordinates (at2, zero outside the matrix) so that a block's coordinate
  Kb·s + u needs no bound proof inside the sum.
-/
import Idealize.ShloMosaic.Lib.ValueIdx
import Idealize.ShloMosaic.PureOps.Ideal.Laws

namespace Cert.BlockedDense

open Idealize.ShloMosaic Idealize.ShloMosaic.ValueIdx
open scoped BigOperators

/-- The entry (r, k) of a matrix at natural coordinates; zero outside the matrix. -/
noncomputable def at2 {β : Type} [Zero β] {A B : ℕ} (x : (⟨2, ![A, B]⟩ : Shape).Idx → β) (r k : ℕ) : β :=
  if h : r < A ∧ k < B then x (ix2 ⟨r, h.1⟩ ⟨k, h.2⟩) else 0

theorem at2_of_lt {β : Type} [Zero β] {A B : ℕ} (x : (⟨2, ![A, B]⟩ : Shape).Idx → β) {r k : ℕ} (hr : r < A)
    (hk : k < B) : at2 x r k = x (ix2 ⟨r, hr⟩ ⟨k, hk⟩) := dif_pos ⟨hr, hk⟩

/-- At the coordinates of an index inside the matrix it is the matrix's entry. -/
theorem at2_val {β : Type} [Zero β] {A B : ℕ} (x : (⟨2, ![A, B]⟩ : Shape).Idx → β) (r : Fin A) (k : Fin B) :
    at2 x r.val k.val = x (ix2 r k) := dif_pos ⟨r.isLt, k.isLt⟩

/-- A sum over J · K consecutive coordinates is the sum over the J blocks of the sums over each block's K. -/
theorem sum_blocks {β : Type} [AddCommMonoid β] (J K n : ℕ) (h : n = J * K) (f : ℕ → β) :
    ∑ k : Fin n, f k.val = ∑ s ∈ Finset.range J, ∑ u : Fin K, f (K * s + u.val) := by
  subst h
  rw [← Fin.sum_univ_eq_sum_range (fun s => ∑ u : Fin K, f (K * s + u.val)) J,
    ← Equiv.sum_comp finProdFinEquiv, Fintype.sum_prod_type]
  refine Finset.sum_congr rfl fun s _ => Finset.sum_congr rfl fun u _ => ?_
  congr 1
  rw [finProdFinEquiv_apply_val]
  exact Nat.add_comm _ _

/-- The dense layer x · wᵀ + b at an entry: row r of x against row q of w, plus b q. -/
noncomputable def dense {A C K : ℕ} (x : (⟨2, ![A, K]⟩ : Shape).Idx → EReal) (w : (⟨2, ![C, K]⟩ : Shape).Idx → EReal)
    (b : (⟨1, ![C]⟩ : Shape).Idx → EReal) : (⟨2, ![A, C]⟩ : Shape).Idx → EReal :=
  fun i => (∑ k : Fin K, x (ix2 (⟨(i 0).val, idx2_lt0 i⟩ : Fin A) k) * w (ix2 (⟨(i 1).val, idx2_lt1 i⟩ : Fin C) k))
    + b (ix1 (⟨(i 1).val, idx2_lt1 i⟩ : Fin C))

theorem dense_apply {A C K : ℕ} (x : (⟨2, ![A, K]⟩ : Shape).Idx → EReal) (w : (⟨2, ![C, K]⟩ : Shape).Idx → EReal)
    (b : (⟨1, ![C]⟩ : Shape).Idx → EReal) (r : Fin A) (q : Fin C) :
    dense x w b (ix2 r q) = (∑ k : Fin K, x (ix2 r k) * w (ix2 q k)) + b (ix1 q) := rfl

/-- The layer's entry with the contraction cut into J blocks of Kb: the zero word, plus the blocks' partial
    products one after the other, plus the bias. -/
theorem dense_blocked {A C K : ℕ} (J Kb : ℕ) (hK : K = J * Kb) (x : (⟨2, ![A, K]⟩ : Shape).Idx → EReal)
    (w : (⟨2, ![C, K]⟩ : Shape).Idx → EReal) (b : (⟨1, ![C]⟩ : Shape).Idx → EReal) (r : Fin A) (q : Fin C) :
    dense x w b (ix2 r q)
      = (Ideal.ofBits .f32 0x00000000#32
          + ∑ s ∈ Finset.range J, ∑ u : Fin Kb, at2 x r.val (Kb * s + u.val) * at2 w q.val (Kb * s + u.val))
        + b (ix1 q) := by
  rw [dense_apply, Ideal.ofBits_zero_f32, zero_add,
    ← sum_blocks J Kb K hK (fun k => at2 x r.val k * at2 w q.val k)]
  congr 1
  exact Finset.sum_congr rfl fun k _ => by rw [at2_val, at2_val]

end Cert.BlockedDense
-- ==== Proof.LossSpec.lean ====
/-
  The loss as one function of the argument arrays, at the exact (extended-real) reading.

  Rows are numbered r < 8388608; l r and u r are the two columns of the prediction P, y r the target Y,
  p r the previous value Q and v r the integer flag W.  With the centre c r = (l r + u r) * (1/2), four
  quantities are summed over all rows:
    sq    (y r - c r) * (y r - c r)                      the squared distance of the target from the centre,
    width u r - l r                                      the interval's width,
    inv   max (l r - u r) 0                              by how much the interval is inverted,
    dir   max (c r - p r) 0 where v r = 0, else max (p r - c r) 0
                                                         the one-sided distance of the centre from p.
  Each total is read as "the zero word plus the sum", which is how both programs start their sums.  The loss
  combines the four totals by one fixed scalar expression (tail).

  The one law used between the two programs is that a sum over 8388608 = 2048 * 4096 consecutive rows is
  the sum over 2048 blocks of the sums over each block's 4096 rows (total_blocks).  This is commutativity and
  associativity of + only, so it holds on the extended reals with their infinities and needs no entry to be
  finite.
-/
import Idealize.ShloMosaic.PureOps.Ideal.Laws
import Idealize.ShloMosaic.Lib.ValueIdx
import proofs.«103586_j22119081575125_2_alg».proof.Proof.LibBlockedDense

noncomputable section

namespace Cert.LossSpec

open Idealize.ShloMosaic Idealize.ShloMosaic.ValueIdx
open scoped BigOperators

/-- The number of rows. -/
abbrev rows : ℕ := 8388608

/-- The word of 1/2 and the zero word, as extended reals. -/
abbrev half : EReal := Ideal.ofBits .f32 0x3F000000#32
abbrev zero : EReal := Ideal.ofBits .f32 0x00000000#32

/-- The centre of the interval [l, u]. -/
def centre (l u : EReal) : EReal := (l + u) * half
/-- The squared distance of the target y from the centre. -/
def sqT (l u y : EReal) : EReal := (y - centre l u) * (y - centre l u)
/-- The width of the interval. -/
def widthT (l u : EReal) : EReal := u - l
/-- By how much the interval is inverted. -/
def invT (l u : EReal) : EReal := max (l - u) zero
/-- The distance of the centre above p where the flag is zero, below p otherwise, cut off at zero. -/
def dirT (l u p : EReal) (v : BitVec 32) : EReal :=
  Scalar.select (IntOp.cmpi .eq v 0#32) (max (centre l u - p) zero) (max (p - centre l u) zero)

section Rows

variable (P : (⟨2, ![rows, 2]⟩ : Shape).Idx → EReal) (Y : (⟨2, ![rows, 1]⟩ : Shape).Idx → EReal)
  (Q : (⟨1, ![rows]⟩ : Shape).Idx → EReal) (W : (⟨1, ![rows]⟩ : Shape).Idx → BitVec 32)

/-- Row r's four terms, at a natural row number (zero past the last row). -/
def sqRow (r : ℕ) : EReal :=
  if h : r < rows then sqT (P (ix2 ⟨r, h⟩ (0 : Fin 2))) (P (ix2 ⟨r, h⟩ (1 : Fin 2))) (Y (ix2 ⟨r, h⟩ (0 : Fin 1))) else 0
def widthRow (r : ℕ) : EReal :=
  if h : r < rows then widthT (P (ix2 ⟨r, h⟩ (0 : Fin 2))) (P (ix2 ⟨r, h⟩ (1 : Fin 2))) else 0
def invRow (r : ℕ) : EReal :=
  if h : r < rows then invT (P (ix2 ⟨r, h⟩ (0 : Fin 2))) (P (ix2 ⟨r, h⟩ (1 : Fin 2))) else 0
def dirRow (r : ℕ) : EReal :=
  if h : r < rows then dirT (P (ix2 ⟨r, h⟩ (0 : Fin 2))) (P (ix2 ⟨r, h⟩ (1 : Fin 2))) (Q (ix1 ⟨r, h⟩)) (W (ix1 ⟨r, h⟩)) else 0

theorem sqRow_val (k : Fin rows) :
    sqRow P Y k.val = sqT (P (ix2 k (0 : Fin 2))) (P (ix2 k (1 : Fin 2))) (Y (ix2 k (0 : Fin 1))) := dif_pos k.isLt
theorem widthRow_val (k : Fin rows) :
    widthRow P k.val = widthT (P (ix2 k (0 : Fin 2))) (P (ix2 k (1 : Fin 2))) := dif_pos k.isLt
theorem invRow_val (k : Fin rows) :
    invRow P k.val = invT (P (ix2 k (0 : Fin 2))) (P (ix2 k (1 : Fin 2))) := dif_pos k.isLt
theorem dirRow_val (k : Fin rows) :
    dirRow P Q W k.val = dirT (P (ix2 k (0 : Fin 2))) (P (ix2 k (1 : Fin 2))) (Q (ix1 k)) (W (ix1 k)) := dif_pos k.isLt

end Rows

/-- A total over all rows: the zero word plus the sum. -/
def total (f : ℕ → EReal) : EReal := zero + ∑ k : Fin rows, f k.val

/-- The total taken block by block: 2048 blocks of 4096 consecutive rows. -/
theorem total_blocks (f : ℕ → EReal) :
    total f = zero + ∑ s ∈ Finset.range 2048, ∑ u : Fin 4096, f (4096 * s + u.val) := by
  unfold total
  rw [Cert.BlockedDense.sum_blocks 2048 4096 rows (by norm_num) f]

/-- A sum over the index set of an [n, 1] array is the sum over its n rows. -/
theorem sum_col {n : ℕ} (g : (⟨2, ![n, 1]⟩ : Shape).Idx → EReal) :
    ∑ i, g i = ∑ k : Fin n, g (ix2 k (0 : Fin 1)) := by
  rw [sum_idx2]
  exact Finset.sum_congr rfl fun k _ => Fin.sum_univ_one _

/-- The index set of an [n] array is its n positions. -/
def idxEquiv1 {n : ℕ} : (⟨1, ![n]⟩ : Shape).Idx ≃ Fin n where
  toFun i := i 0
  invFun k := ix1 k
  left_inv i := (eq_ix1 i).symm
  right_inv _ := rfl

/-- A sum over the index set of an [n] array is the sum over its n positions. -/
theorem sum_vec {n : ℕ} (g : (⟨1, ![n]⟩ : Shape).Idx → EReal) :
    ∑ i, g i = ∑ k : Fin n, g (ix1 k) := by
  rw [← Equiv.sum_comp (idxEquiv1 (n := n)).symm g]
  rfl

/-- The scalar shape. -/
abbrev S_ : Shape := ⟨0, ![]⟩

/-- The loss from the four totals a, b, c, d (each a scalar array), with n the word of 8388608:
    (a / n) * 10 + 0.1w * (b / n) + 10 * (c / n) + ((1/2) * d) / n, the words and the grouping as both programs
    write them.  It is never opened: the two programs apply the same expression to equal totals. -/
def tail {F : FTy → Type} [FloatOps F] (a b c d : FVec F S_ .f32) : FVec F S_ .f32 :=
  addf
    (addf
      (addf (mulf (Host.divf a (constant (F := F) S_ .f32 0x4B000000#32)) (constant (F := F) S_ .f32 0x41200000#32))
        (mulf (constant (F := F) S_ .f32 0x3DCCCCCD#32) (Host.divf b (constant (F := F) S_ .f32 0x4B000000#32))))
      (mulf (constant (F := F) S_ .f32 0x41200000#32) (Host.divf c (constant (F := F) S_ .f32 0x4B000000#32))))
    (Host.divf (mulf (constant (F := F) S_ .f32 0x3F000000#32) d) (constant (F := F) S_ .f32 0x4B000000#32))

/-- The loss of the argument arrays. -/
def loss (P : (⟨2, ![rows, 2]⟩ : Shape).Idx → EReal) (Y : (⟨2, ![rows, 1]⟩ : Shape).Idx → EReal)
    (Q : (⟨1, ![rows]⟩ : Shape).Idx → EReal) (W : (⟨1, ![rows]⟩ : Shape).Idx → BitVec 32) : FVec Ideal S_ .f32 :=
  tail (F := Ideal) (fun _ => total (sqRow P Y)) (fun _ => total (widthRow P)) (fun _ => total (invRow P))
    (fun _ => total (dirRow P Q W))

end Cert.LossSpec

end
-- ==== Proof.KernelRow.lean ====
/-
  One grid point's contribution, at the exact reading.  From the point's four blocks — x0 the [4096, 2] block of
  predictions, x1 the [4096, 1] block of targets, x2 the [4096, 1] block of previous values, x3 the [4096, 1] block
  of flags — the body computes a [1, 4] row whose entry (0, j) is the sum over the block's 4096 rows of the j-th
  per-row term: squared distance, width, inversion, one-sided distance.

  Each entry is read in four steps: the join of four one-entry matrices at column j is piece j; a one-entry vector
  cast to a one-entry matrix keeps its entry; a sum over the rows of a [4096, 1] matrix at its one column is the
  sum over k < 4096 of entry (k, 0); and at row k every operation of the term is pointwise, the two columns of
  the prediction block being entries (k, 0) and (k, 1) of x0.
-/
import proofs.«103586_j22119081575125_2_alg».proof.Proof.Gen.KernelIdeal.Skeleton
import proofs.«103586_j22119081575125_2_alg».proof.Proof.LibColReduce
import proofs.«103586_j22119081575125_2_alg».proof.Proof.LibRowJoin
import proofs.«103586_j22119081575125_2_alg».proof.Proof.LossSpec
import Idealize.ShloMosaic.Lib.Pipeline.Value
import Idealize.ShloMosaic.Lib.ValueIdx

noncomputable section

namespace Cert.KernelIdeal.RowValue

open Cert.KernelIdeal Cert.KernelIdeal.Gen Idealize.ShloMosaic Idealize.ShloMosaic.ValueIdx Cert.LossSpec
open scoped BigOperators

/-- The lower ends: column 0 of the prediction block, at row k. -/
theorem lower_at (x0 : Vec Ideal S4096x2 .f32) (h : S4096x2.Slices ![0, 0] S4096x1) (k : Fin 4096) :
    extractStridedSlice S4096x1 ![0, 0] x0 h (ix2 k (0 : Fin 1)) = x0 (ix2 k (0 : Fin 2)) :=
  extractStridedSlice_apply ![0, 0] x0 h (ix2 k (0 : Fin 1)) (ix2 k (0 : Fin 2)) (fun a => match a with
    | ⟨0, _⟩ => by show k.val = 0 + k.val; omega
    | ⟨1, _⟩ => by show (0 : ℕ) = 0 + 0; rfl)

/-- The upper ends: column 1 of the prediction block, at row k. -/
theorem upper_at (x0 : Vec Ideal S4096x2 .f32) (h : S4096x2.Slices ![0, 1] S4096x1) (k : Fin 4096) :
    extractStridedSlice S4096x1 ![0, 1] x0 h (ix2 k (0 : Fin 1)) = x0 (ix2 k (1 : Fin 2)) :=
  extractStridedSlice_apply ![0, 1] x0 h (ix2 k (0 : Fin 1)) (ix2 k (1 : Fin 2)) (fun a => match a with
    | ⟨0, _⟩ => by show k.val = 0 + k.val; omega
    | ⟨1, _⟩ => by show (1 : ℕ) = 1 + 0; rfl)

variable (x0 : Vec Ideal S4096x2 .f32) (x1 x2 : Vec Ideal S4096x1 .f32) (x3 : Vec Ideal S4096x1 .i32)

/-- Entry (0, 0): the block's sum of squared distances of the target from the centre. -/
theorem row_sq :
    k0_pay3 (F := Ideal) x0 x1 x2 x3 (ix2 (0 : Fin 1) (0 : Fin 4))
      = ∑ k : Fin 4096, sqT (x0 (ix2 k (0 : Fin 2))) (x0 (ix2 k (1 : Fin 2))) (x1 (ix2 k (0 : Fin 1))) := by
  unfold k0_pay3
  dsimp only
  refine (Cert.RowJoin.join4_0 _ _ _ _ _).trans ?_
  refine (Cert.ColReduce.shapeCast_1_11 _ _ 0 0).trans ?_
  refine (Cert.ColReduce.multiReduction_add_cols _ _ _ _ _ (0 : Fin 1)).trans ?_
  refine Finset.sum_congr rfl fun k _ => ?_
  simp only [mulf_apply, subf_apply, addf_apply, broadcast_apply]
  rw [lower_at, upper_at]
  rfl

/-- Entry (0, 1): the block's sum of widths. -/
theorem row_width :
    k0_pay3 (F := Ideal) x0 x1 x2 x3 (ix2 (0 : Fin 1) (1 : Fin 4))
      = ∑ k : Fin 4096, widthT (x0 (ix2 k (0 : Fin 2))) (x0 (ix2 k (1 : Fin 2))) := by
  unfold k0_pay3
  dsimp only
  refine (Cert.RowJoin.join4_1 _ _ _ _ _).trans ?_
  refine (Cert.ColReduce.shapeCast_1_11 _ _ 0 0).trans ?_
  refine (Cert.ColReduce.multiReduction_add_cols _ _ _ _ _ (0 : Fin 1)).trans ?_
  refine Finset.sum_congr rfl fun k _ => ?_
  simp only [subf_apply]
  rw [lower_at, upper_at]
  rfl

/-- Entry (0, 2): the block's sum of inversions. -/
theorem row_inv :
    k0_pay3 (F := Ideal) x0 x1 x2 x3 (ix2 (0 : Fin 1) (2 : Fin 4))
      = ∑ k : Fin 4096, invT (x0 (ix2 k (0 : Fin 2))) (x0 (ix2 k (1 : Fin 2))) := by
  unfold k0_pay3
  dsimp only
  refine (Cert.RowJoin.join4_2 _ _ _ _ _).trans ?_
  refine (Cert.ColReduce.shapeCast_1_11 _ _ 0 0).trans ?_
  refine (Cert.ColReduce.multiReduction_add_cols _ _ _ _ _ (0 : Fin 1)).trans ?_
  refine Finset.sum_congr rfl fun k _ => ?_
  simp only [maximumf_apply, subf_apply, broadcast_apply]
  rw [lower_at, upper_at]
  rfl

/-- Entry (0, 3): the block's sum of one-sided distances of the centre from the previous value, the side chosen
    by the flag. -/
theorem row_dir :
    k0_pay3 (F := Ideal) x0 x1 x2 x3 (ix2 (0 : Fin 1) (3 : Fin 4))
      = ∑ k : Fin 4096, dirT (x0 (ix2 k (0 : Fin 2))) (x0 (ix2 k (1 : Fin 2))) (x2 (ix2 k (0 : Fin 1)))
          (x3 (ix2 k (0 : Fin 1))) := by
  unfold k0_pay3
  dsimp only
  refine (Cert.RowJoin.join4_3 _ _ _ _ _).trans ?_
  refine (Cert.ColReduce.shapeCast_1_11 _ _ 0 0).trans ?_
  refine (Cert.ColReduce.multiReduction_add_cols _ _ _ _ _ (0 : Fin 1)).trans ?_
  refine Finset.sum_congr rfl fun k _ => ?_
  simp only [select_apply, maximumf_apply, mulf_apply, subf_apply, addf_apply, broadcast_apply, shapeCast_self]
  rw [lower_at, upper_at]
  rfl

end Cert.KernelIdeal.RowValue

end
-- ==== Proof.KernelCases.lean ====
/-
  What the body leaves in the output's [1, 4] staging block, in each of its two control cases, as a value.

  At the first grid point the body first stores the zero block, then adds the point's row to what it reads back,
  so it leaves  zero block + row.  At every later point it adds the point's row to the block's running contents
  xo and leaves  xo + row.  In both cases the last store covers the whole block, so the block's final contents are
  that one store's value; the loads read whole buffers, so they return the buffers' contents.

  Here row is the body's row of four block sums (a function of the point's four input blocks), and "a + row" is the
  body's own accumulation step, kept as the body writes it.
-/
import proofs.«103586_j22119081575125_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem
open Idealize.ShloMosaic.Tactic

variable {F : FTy → Type} [FloatOps F]

/-- The offsets of a whole-block access: zero on both axes. -/
theorem hz : (![0, 0] : Fin 2 → Nat) = fun _ => 0 := funext fun a => by fin_cases a <;> rfl

/-- A LATER POINT: over running contents xo the body leaves xo + row. -/
theorem out_later (c : Dev nD) (i : grid0.Coords) (a1 : Memref sig .tc .vmem S4096x2 .f32) (h1 : a1.IsWhole)
    (a2 : Memref sig .tc .vmem S4096x1 .f32) (h2 : a2.IsWhole) (a3 : Memref sig .tc .vmem S4096x1 .f32) (h3 : a3.IsWhole)
    (a4 : Memref sig .tc .vmem S4096x1 .i32) (h4 : a4.IsWhole) (a5 : Memref sig .tc .vmem S1x4 .f32) (h5 : a5.IsWhole)
    (hc : ¬cond0_0 i) (x0 : Vec F S4096x2 .f32) (x1 x2 : Vec F S4096x1 .f32) (x3 : Vec F S4096x1 .i32)
    (xo : Vec F S1x4 .f32) :
    out0_B_4 c i a1 h1 a2 h2 a3 h3 a4 h4 a5 h5 hc x0 x1 x2 x3 xo = k0_pay1 (k0_pay3 x0 x1 x2 x3) xo := by
  unfold out0_B_4
  rw [View.read_writes_eq_canon _ _ _ (cover0_B_4 c i a1 h1 a2 h2 a3 h3 a4 h4 a5 h5 hc x0 x1 x2 x3 xo)]
  unfold kernelRun0_B
  dsimp only
  sl_unfold_words
  rw [View.canon_unit_zero hz]
  simp only [View.readAt_eq_ld, h1.read_unread, h2.read_unread, h3.read_unread, h4.read_unread, h5.read_unread,
    View.ld_unit_zero (S := S4096x2) hz, View.ld_unit_zero (S := S4096x1) hz, View.ld_unit_zero (S := S1x4) hz]

/-- THE FIRST POINT: the body leaves zero block + row. -/
theorem out_first (c : Dev nD) (i : grid0.Coords) (a1 : Memref sig .tc .vmem S4096x2 .f32) (h1 : a1.IsWhole)
    (a2 : Memref sig .tc .vmem S4096x1 .f32) (h2 : a2.IsWhole) (a3 : Memref sig .tc .vmem S4096x1 .f32) (h3 : a3.IsWhole)
    (a4 : Memref sig .tc .vmem S4096x1 .i32) (h4 : a4.IsWhole) (a5 : Memref sig .tc .vmem S1x4 .f32) (h5 : a5.IsWhole)
    (hc : cond0_0 i) (x0 : Vec F S4096x2 .f32) (x1 x2 : Vec F S4096x1 .f32) (x3 : Vec F S4096x1 .i32) :
    out0_A_4 c i a1 h1 a2 h2 a3 h3 a4 h4 a5 h5 hc x0 x1 x2 x3 = k0_pay1 (k0_pay3 x0 x1 x2 x3) (k0_pay2 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x4) hz, View.readCov_unit_zero (S := S1x4) _ hz]
  simp only [View.readAt_eq_ld, h1.read_unread, h2.read_unread, h3.read_unread, h4.read_unread,
    View.ld_unit_zero (S := S4096x2) hz, View.ld_unit_zero (S := S4096x1) hz]

end Cert.KernelIdeal.Cases

end
-- ==== Proof.KernelBlocks.lean ====
/-
  The input blocks as rows of the argument arrays.  Grid point t reads rows 4096 t, ..., 4096 t + 4095 of each
  input: entry (u, a) of a point's block is entry (4096 t + u, a) of the array the window was cut from (a block's
  coordinate along an axis is the block's index times the block's extent plus the coordinate inside the block,
  and here the index map sends point t to block (t, 0)).

  The first two windows are cut from the prediction and target arguments as launched.  The other two are cut
  from the previous-value and flag arguments re-laid from [8388608] to [8388608, 1] before the region, and entry
  (r, 0) of such a column is entry r of the vector.
-/
import proofs.«103586_j22119081575125_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

/-- A vector laid as a column: entry (r, 0) of the column is entry r of the vector. -/
theorem col_of_vec {α : Type} {n : ℕ} (x : (⟨1, ![n]⟩ : Shape).Idx → α)
    (h : (⟨1, ![n]⟩ : Shape).ShapeCasts ⟨2, ![n, 1]⟩) (r : Fin n) :
    shapeCast ⟨2, ![n, 1]⟩ x h (ix2 r (0 : Fin 1)) = x (ix1 r) :=
  shapeCast_apply x h _ _ (by
    rw [Shape.rowMajor_val_one, Shape.rowMajor_val_two]
    show r.val = r.val * 1 + 0
    omega)

variable {F : FTy → Type} [FloatOps F]
variable (m : (ℓ : Loc nD τ sig) → Buf (Elt F) ℓ)

/-- The grid has 2048 points. -/
theorem N_eq : cfg0.N = 2048 := N_0

/-- Every row a point reads is a row of the arrays. -/
theorem row_lt (t : Fin cfg0.N) (u : Fin 4096) : 4096 * t.val + u.val < 8388608 := by
  have h1 : t.val < 2048 := lt_of_lt_of_eq t.isLt N_eq
  have h2 := u.isLt
  omega

/-- The index maps of the four input windows, decided over the grid: point t reads block (t, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- The prediction block at point t: rows 4096 t + u of the prediction array, both columns. -/
theorem pred_at (c : Dev nD) (t : Fin cfg0.N) (u : Fin 4096) (a : Fin 2) :
    (iblk m c 0 t : Vec F S4096x2 .f32) (ix2 u a)
      = m ((c : Thread nD τ).loc main_arg0) (ix2 ⟨4096 * t.val + u.val, row_lt t u⟩ a) := by
  rw [← V_main_arg0 m c]
  unfold iblk
  rw [View.read_apply]
  show V m c main_arg0 _ = V m c main_arg0 _
  congr 1
  funext b
  apply Fin.ext
  match b with
  | ⟨0, _⟩ => show win0_0.index t 0 * 4096 + 1 * u.val = 4096 * t.val + u.val; rw [(idx0 t).1]; omega
  | ⟨1, _⟩ => show win0_0.index t 1 * 2 + 1 * a.val = a.val; rw [(idx0 t).2]; omega

/-- The target block at point t: rows 4096 t + u of the target array. -/
theorem target_at (c : Dev nD) (t : Fin cfg0.N) (u : Fin 4096) :
    (iblk m c 1 t : Vec F S4096x1 .f32) (ix2 u (0 : Fin 1))
      = m ((c : Thread nD τ).loc main_arg1) (ix2 ⟨4096 * t.val + u.val, row_lt t u⟩ (0 : Fin 1)) := by
  rw [← V_main_arg1 m c]
  unfold iblk
  rw [View.read_apply]
  show V m c main_arg1 _ = V m c main_arg1 _
  congr 1
  funext b
  apply Fin.ext
  match b with
  | ⟨0, _⟩ => show win0_1.index t 0 * 4096 + 1 * u.val = 4096 * t.val + u.val; rw [(idx1 t).1]; omega
  | ⟨1, _⟩ => show win0_1.index t 1 * 1 + 1 * 0 = 0; rw [(idx1 t).2]

/-- Before the region the previous-value argument is re-laid as a column. -/
theorem V_prev (c : Dev nD) :
    (V m c main_v0 : S8388608x1.Idx → Elt F .f32)
      = shapeCast S8388608x1 (m ((c : Thread nD τ).loc main_arg2)) shapeCasts_S8388608_S8388608x1 := by
  show StableHlo.after hostOps0 (fun b => m (c, b)) (Proc.devRef .tc main_v0) = _
  after_results
  rfl

/-- And so is the flag argument. -/
theorem V_flag (c : Dev nD) :
    (V m c main_v1 : S8388608x1.Idx → Elt F .i32)
      = shapeCast S8388608x1 (m ((c : Thread nD τ).loc main_arg3)) shapeCasts_S8388608_S8388608x1 := by
  show StableHlo.after hostOps0 (fun b => m (c, b)) (Proc.devRef .tc main_v1) = _
  after_results
  rfl

/-- The previous-value block at point t: entries 4096 t + u of the previous-value argument. -/
theorem prev_at (c : Dev nD) (t : Fin cfg0.N) (u : Fin 4096) :
    (iblk m c 2 t : Vec F S4096x1 .f32) (ix2 u (0 : Fin 1))
      = m ((c : Thread nD τ).loc main_arg2) (ix1 ⟨4096 * t.val + u.val, row_lt t u⟩) := by
  rw [← col_of_vec (m ((c : Thread nD τ).loc main_arg2)) shapeCasts_S8388608_S8388608x1 ⟨4096 * t.val + u.val, row_lt t u⟩,
    ← V_prev m c]
  unfold iblk
  rw [View.read_apply]
  show V m c main_v0 _ = V m c main_v0 _
  congr 1
  funext b
  apply Fin.ext
  match b with
  | ⟨0, _⟩ => show win0_2.index t 0 * 4096 + 1 * u.val = 4096 * t.val + u.val; rw [(idx2 t).1]; omega
  | ⟨1, _⟩ => show win0_2.index t 1 * 1 + 1 * 0 = 0; rw [(idx2 t).2]

/-- The flag block at point t: entries 4096 t + u of the flag argument. -/
theorem flag_at (c : Dev nD) (t : Fin cfg0.N) (u : Fin 4096) :
    (iblk m c 3 t : Vec F S4096x1 .i32) (ix2 u (0 : Fin 1))
      = m ((c : Thread nD τ).loc main_arg3) (ix1 ⟨4096 * t.val + u.val, row_lt t u⟩) := by
  rw [← col_of_vec (m ((c : Thread nD τ).loc main_arg3)) shapeCasts_S8388608_S8388608x1 ⟨4096 * t.val + u.val, row_lt t u⟩,
    ← V_flag m c]
  unfold iblk
  rw [View.read_apply]
  show V m c main_v1 _ = V m c main_v1 _
  congr 1
  funext b
  apply Fin.ext
  match b with
  | ⟨0, _⟩ => show win0_3.index t 0 * 4096 + 1 * u.val = 4096 * t.val + u.val; rw [(idx3 t).1]; omega
  | ⟨1, _⟩ => show win0_3.index t 1 * 1 + 1 * 0 = 0; rw [(idx3 t).2]

end Cert.KernelIdeal.Blocks

end
-- ==== Proof.KernelSum.lean ====
/-
  The running sums across the grid, at the exact reading.

  After grid point n the output's [1, 4] staging block holds, at every entry, the zero word plus the sum over
  the points s = 0, ..., n of point s's row at that entry (block_after): the first point leaves zero + row 0, each
  later point adds its row to what the point before left, and + is associative.

  Point s's row has at entry (0, j) the sum over u < 4096 of the j-th per-row term at row 4096 s + u of the
  argument arrays (point_sq, point_width, point_inv, point_dir): the row payload read at an entry, over the input
  blocks read as rows of the arguments.

  So after the last point, 2047, entry (0, j) is the zero word plus the sum over 2048 blocks of the sums over
  each block's 4096 rows, which is the total over all 8388608 rows (acc_sq, acc_width, acc_inv, acc_dir).
-/
import proofs.«103586_j22119081575125_2_alg».proof.Proof.KernelRow
import proofs.«103586_j22119081575125_2_alg».proof.Proof.KernelCases
import proofs.«103586_j22119081575125_2_alg».proof.Proof.KernelBlocks

noncomputable section

namespace Cert.KernelIdeal.Sum

open Cert.KernelIdeal Cert.KernelIdeal.Gen Idealize.ShloMosaic Idealize.ShloMosaic.TcCoe Idealize.SL.Sem
open Idealize.ShloMosaic.ValueIdx Cert.LossSpec Cert.KernelIdeal.Cases Cert.KernelIdeal.Blocks Cert.KernelIdeal.RowValue
open scoped BigOperators

variable (m : (ℓ : Loc nD τ sig) → Buf (Elt Ideal) ℓ)

/-- The four argument arrays on core c: predictions, targets, previous values, flags. -/
abbrev argP (c : Dev nD) : (⟨2, ![rows, 2]⟩ : Shape).Idx → EReal := m ((c : Thread nD τ).loc main_arg0)
abbrev argY (c : Dev nD) : (⟨2, ![rows, 1]⟩ : Shape).Idx → EReal := m ((c : Thread nD τ).loc main_arg1)
abbrev argQ (c : Dev nD) : (⟨1, ![rows]⟩ : Shape).Idx → EReal := m ((c : Thread nD τ).loc main_arg2)
abbrev argW (c : Dev nD) : (⟨1, ![rows]⟩ : Shape).Idx → BitVec 32 := m ((c : Thread nD τ).loc main_arg3)

/-- Point s's row of four block sums, at a natural point number (the zero row past the grid). -/
def rowAt (c : Dev nD) (s : ℕ) : Vec Ideal S1x4 .f32 :=
  if h : s < cfg0.N then
    k0_pay3 (F := Ideal) (iblk m c 0 ⟨s, h⟩) (iblk m c 1 ⟨s, h⟩) (iblk m c 2 ⟨s, h⟩) (iblk m c 3 ⟨s, h⟩)
  else fun _ => 0

theorem rowAt_of_lt (c : Dev nD) (s : ℕ) (h : s < cfg0.N) :
    rowAt m c s
      = k0_pay3 (F := Ideal) (iblk m c 0 ⟨s, h⟩) (iblk m c 1 ⟨s, h⟩) (iblk m c 2 ⟨s, h⟩) (iblk m c 3 ⟨s, h⟩) :=
  dif_pos h

/-- The accumulation step at an entry: the running contents plus the row. -/
theorem step_apply (row acc : Vec Ideal S1x4 .f32) (i : S1x4.Idx) : k0_pay1 (F := Ideal) row acc i = acc i + row i := by
  unfold k0_pay1
  rw [shapeCast_self]
  rfl

/-- The zero block at an entry: the zero word. -/
theorem zero_apply (i : S1x4.Idx) : k0_pay2 (F := Ideal) i = zero := rfl

/-- AFTER POINT n the block holds the zero word plus the rows of points 0, ..., n. -/
theorem block_after (c : Dev nD) : ∀ (n : ℕ) (h : n < cfg0.N) (i : S1x4.Idx),
    outsAt0 m c n h i = zero + ∑ s ∈ Finset.range (n + 1), rowAt m c s i
  | 0, h, i => by
    refine (congrFun (outsAt0_A m c ⟨0, h⟩ rfl) i).trans ?_
    refine (congrFun (out_first c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩)
      ((hcond0_0 ⟨0, h⟩).mpr rfl) (iblk m c 0 ⟨0, h⟩) (iblk m c 1 ⟨0, h⟩) (iblk m c 2 ⟨0, h⟩) (iblk m c 3 ⟨0, h⟩)) i).trans ?_
    refine (step_apply _ _ i).trans ?_
    rw [Finset.sum_range_one, rowAt_of_lt m c 0 h]
    rfl
  | n + 1, h, i => by
    have hN : cfg0.N = 2048 := N_0
    have hB : ¬(⟨n + 1, h⟩ : Fin cfg0.N).val % 2048 = 0 := by dsimp only; omega
    refine (congrFun (outsAt0_B m c ⟨n + 1, h⟩ hB) i).trans ?_
    refine (congrFun (out_later c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
      (hs0_4 ⟨n + 1, h⟩) (fun hh => hB ((hcond0_0 ⟨n + 1, h⟩).mp hh)) (iblk m c 0 ⟨n + 1, h⟩) (iblk m c 1 ⟨n + 1, h⟩)
      (iblk m c 2 ⟨n + 1, h⟩) (iblk m c 3 ⟨n + 1, h⟩)
      (outsAt0 m c ((⟨n + 1, h⟩ : Fin cfg0.N).val - 1) (Nat.lt_of_le_of_lt (Nat.sub_le _ _) (⟨n + 1, h⟩ : Fin cfg0.N).isLt))) i).trans ?_
    refine (step_apply _ _ i).trans ?_
    show outsAt0 m c n _ i + _ = _
    rw [block_after c n (Nat.lt_of_succ_lt h) i, Finset.sum_range_succ _ (n + 1), rowAt_of_lt m c (n + 1) h, add_assoc]

/-- Point s's row at entry (0, 0): the squared distances of rows 4096 s + u. -/
theorem point_sq (c : Dev nD) (s : ℕ) (h : s < cfg0.N) :
    rowAt m c s (ix2 (0 : Fin 1) (0 : Fin 4)) = ∑ u : Fin 4096, sqRow (argP m c) (argY m c) (4096 * s + u.val) := by
  rw [rowAt_of_lt m c s h]
  refine (row_sq (iblk m c 0 ⟨s, h⟩) (iblk m c 1 ⟨s, h⟩) (iblk m c 2 ⟨s, h⟩) (iblk m c 3 ⟨s, h⟩)).trans ?_
  refine Finset.sum_congr rfl fun u _ => ?_
  rw [pred_at m c ⟨s, h⟩ u 0, pred_at m c ⟨s, h⟩ u 1, target_at m c ⟨s, h⟩ u]
  exact (sqRow_val (argP m c) (argY m c) ⟨4096 * s + u.val, row_lt ⟨s, h⟩ u⟩).symm

/-- Entry (0, 1): the widths of rows 4096 s + u. -/
theorem point_width (c : Dev nD) (s : ℕ) (h : s < cfg0.N) :
    rowAt m c s (ix2 (0 : Fin 1) (1 : Fin 4)) = ∑ u : Fin 4096, widthRow (argP m c) (4096 * s + u.val) := by
  rw [rowAt_of_lt m c s h]
  refine (row_width (iblk m c 0 ⟨s, h⟩) (iblk m c 1 ⟨s, h⟩) (iblk m c 2 ⟨s, h⟩) (iblk m c 3 ⟨s, h⟩)).trans ?_
  refine Finset.sum_congr rfl fun u _ => ?_
  rw [pred_at m c ⟨s, h⟩ u 0, pred_at m c ⟨s, h⟩ u 1]
  exact (widthRow_val (argP m c) ⟨4096 * s + u.val, row_lt ⟨s, h⟩ u⟩).symm

/-- Entry (0, 2): the inversions of rows 4096 s + u. -/
theorem point_inv (c : Dev nD) (s : ℕ) (h : s < cfg0.N) :
    rowAt m c s (ix2 (0 : Fin 1) (2 : Fin 4)) = ∑ u : Fin 4096, invRow (argP m c) (4096 * s + u.val) := by
  rw [rowAt_of_lt m c s h]
  refine (row_inv (iblk m c 0 ⟨s, h⟩) (iblk m c 1 ⟨s, h⟩) (iblk m c 2 ⟨s, h⟩) (iblk m c 3 ⟨s, h⟩)).trans ?_
  refine Finset.sum_congr rfl fun u _ => ?_
  rw [pred_at m c ⟨s, h⟩ u 0, pred_at m c ⟨s, h⟩ u 1]
  exact (invRow_val (argP m c) ⟨4096 * s + u.val, row_lt ⟨s, h⟩ u⟩).symm

/-- Entry (0, 3): the one-sided distances of rows 4096 s + u. -/
theorem point_dir (c : Dev nD) (s : ℕ) (h : s < cfg0.N) :
    rowAt m c s (ix2 (0 : Fin 1) (3 : Fin 4))
      = ∑ u : Fin 4096, dirRow (argP m c) (argQ m c) (argW m c) (4096 * s + u.val) := by
  rw [rowAt_of_lt m c s h]
  refine (row_dir (iblk m c 0 ⟨s, h⟩) (iblk m c 1 ⟨s, h⟩) (iblk m c 2 ⟨s, h⟩) (iblk m c 3 ⟨s, h⟩)).trans ?_
  refine Finset.sum_congr rfl fun u _ => ?_
  rw [pred_at m c ⟨s, h⟩ u 0, pred_at m c ⟨s, h⟩ u 1, prev_at m c ⟨s, h⟩ u, flag_at m c ⟨s, h⟩ u]
  exact (dirRow_val (argP m c) (argQ m c) (argW m c) ⟨4096 * s + u.val, row_lt ⟨s, h⟩ u⟩).symm

/-- The last grid point. -/
theorem last_lt : 2047 < cfg0.N := by rw [N_eq]; omega

/-- What the block holds after the last point. -/
abbrev acc (c : Dev nD) : Vec Ideal S1x4 .f32 := outsAt0 m c 2047 last_lt

/-- A block sum per point, summed over the 2048 points, is the total over all rows. -/
theorem sum_points (c : Dev nD) (i : S1x4.Idx) (f : ℕ → EReal)
    (hrow : ∀ (s : ℕ) (h : s < cfg0.N), rowAt m c s i = ∑ u : Fin 4096, f (4096 * s + u.val)) :
    acc m c i = total f := by
  rw [total_blocks f]
  refine (block_after m c 2047 last_lt i).trans ?_
  refine congrArg (zero + ·) (Finset.sum_congr rfl fun s hs => ?_)
  exact hrow s (by rw [N_eq]; exact Finset.mem_range.mp hs)

theorem acc_sq (c : Dev nD) : acc m c (ix2 (0 : Fin 1) (0 : Fin 4)) = total (sqRow (argP m c) (argY m c)) :=
  sum_points m c _ _ (point_sq m c)
theorem acc_width (c : Dev nD) : acc m c (ix2 (0 : Fin 1) (1 : Fin 4)) = total (widthRow (argP m c)) :=
  sum_points m c _ _ (point_width m c)
theorem acc_inv (c : Dev nD) : acc m c (ix2 (0 : Fin 1) (2 : Fin 4)) = total (invRow (argP m c)) :=
  sum_points m c _ _ (point_inv m c)
theorem acc_dir (c : Dev nD) :
    acc m c (ix2 (0 : Fin 1) (3 : Fin 4)) = total (dirRow (argP m c) (argQ m c) (argW m c)) :=
  sum_points m c _ _ (point_dir m c)

end Cert.KernelIdeal.Sum

end
-- ==== Proof.KernelWriteBack.lean ====
/-
  What the result array of the region holds after the run.  The output window has one [1, 4] block, the whole
  array, at every grid point, and it is written back at the last point only.  So the array ends holding what the
  block holds after the last point: the four totals.

  The write-back point is kept symbolic (a point t with t = 2047): the facts about the window used here — its
  block index is (0, 0) and its block is the whole [1, 4] extent — hold at every point.
-/
import proofs.«103586_j22119081575125_2_alg».proof.Proof.KernelSum
import Idealize.ShloMosaic.Lib.Pipeline.Value
import Idealize.ShloMosaic.Lib.Tactic

noncomputable section

namespace Cert.KernelIdeal.WriteBack

open Cert.KernelIdeal Cert.KernelIdeal.Gen Idealize.ShloMosaic Idealize.ShloMosaic.TcCoe Idealize.SL.Sem
open Idealize.ShloMosaic.ValueIdx Cert.LossSpec Cert.KernelIdeal.Blocks Cert.KernelIdeal.Sum
open Idealize.ShloMosaic.Pipeline (Dat)

variable (m : (ℓ : Loc nD τ sig) → Buf (Elt Ideal) ℓ)

/-- The output window's block index is (0, 0) at every point, -/
theorem out_idx : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- and its block has the whole extent [1, 4]. -/
theorem out_ext : ∀ t : Fin cfg0.N, win0_4.xsize (grid0.coords t) (0 : Fin 2) = 1 ∧ win0_4.xsize (grid0.coords t) (1 : Fin 2) = 4 :=
  (by decide +kernel : ∀ t : Fin grid0.N,
    win0_4.xsize (grid0.coords t) (0 : Fin 2) = 1 ∧ win0_4.xsize (grid0.coords t) (1 : Fin 2) = 4)

/-- The block's contents after a point depend on the point's number only. -/
theorem after_of_eq (c : Dev nD) (n n' : ℕ) (h : n < cfg0.N) (h' : n' < cfg0.N) (e : n = n') :
    outsAt0 m c n h = outsAt0 m c n' h' := by
  subst e
  rfl

/-- A point that writes back writes the block's contents after it, which are the whole array's contents. -/
theorem written (c : Dev nD) (t : Fin cfg0.N) (G : Buf (Elt Ideal) ((c : Thread nD τ).loc main_v2))
    (hG : outsAt0 m c t.val t.isLt = G) :
    (dats m 0 c).flushed 4 t = ((cfg0.win 4).blk t).view.read (Elt Ideal) G := by
  subst hG
  show (cfg0.win 4).cut (grid0.coords t) ((dats m 0 c).after 4 t) = _
  rw [after0_4]
  have hz' : (fun a => win0_4.index t a * main_v2.ty.shape.size a) = fun _ => 0 := funext fun a => by
    match a with
    | ⟨0, _⟩ => show win0_4.index t 0 * _ = 0; rw [(out_idx t).1, Nat.zero_mul]
    | ⟨1, _⟩ => show win0_4.index t 1 * _ = 0; rw [(out_idx t).2, Nat.zero_mul]
  exact (Memref.read_access_unit_zero (Elt Ideal) main_v2 hz' (fun a => by rw [congrFun hz' a]; simp) _).symm

/-- The four totals as the contents of the result array. -/
abbrev sums (c : Dev nD) : Buf (Elt Ideal) ((c : Thread nD τ).loc main_v2) := acc m c

/-- THE RESULT ARRAY after the run holds the four totals. -/
theorem final_sums (c : Dev nD) : (dats m 0 c).arrAt 4 cfg0.N = sums m c := by
  obtain ⟨tl, htl⟩ : ∃ t : Fin cfg0.N, t.val = 2047 := ⟨⟨2047, last_lt⟩, rfl⟩
  refine (dats m 0 c).arrAt_eq_of_cover 4 (sums m c) (fun t hf => written m c t (sums m c) ?_)
    (fun i => ⟨tl, (flush0_4 tl).mpr (by rw [htl]), ?_⟩)
  · have h3 : t.val = 2047 := by
      have h1 := (flush0_4 t).mp hf
      have h2 : t.val < 2048 := lt_of_lt_of_eq t.isLt N_eq
      omega
    exact after_of_eq m c t.val 2047 t.isLt last_lt h3
  · show i ∈ ((View.whole main_v2).slice (win0_4.rect tl)).set
    rw [View.set_slice_whole, Rect.mem_set_unit]
    intro a
    have h0 : (i 0 : Nat) < 1 := (i 0).isLt
    have h1 : (i 1 : Nat) < 4 := (i 1).isLt
    match a with
    | ⟨0, _⟩ =>
      show win0_4.index tl 0 * win0_4.size 0 ≤ (i 0 : Nat)
        ∧ (i 0 : Nat) < win0_4.index tl 0 * win0_4.size 0 + win0_4.xsize (grid0.coords tl) 0
      rw [(out_idx tl).1, (out_ext tl).1]; omega
    | ⟨1, _⟩ =>
      show win0_4.index tl 1 * win0_4.size 1 ≤ (i 1 : Nat)
        ∧ (i 1 : Nat) < win0_4.index tl 1 * win0_4.size 1 + win0_4.xsize (grid0.coords tl) 1
      rw [(out_idx tl).2, (out_ext tl).2]; omega

end Cert.KernelIdeal.WriteBack

end
-- ==== Proof.LibRowEntry.lean ====
/-
  An entry of a one-row matrix taken out as a scalar array.  The slice [0:1, o:o+1] of a [1, n] row is the
  one-entry matrix holding the row's entry (0, o); re-laid to rank 0 it is the scalar array whose one index reads
  that entry.  (Both layouts have one position, position 0.)
-/
import Idealize.ShloMosaic.Lib.Pipeline.Value
import Idealize.ShloMosaic.Lib.ValueIdx

namespace Cert.RowEntry

open Idealize.ShloMosaic Idealize.ShloMosaic.ValueIdx

variable {α : Type}

/-- A one-entry matrix re-laid as a scalar array reads its one entry. -/
theorem scalar_of_11 (x : (⟨2, ![1, 1]⟩ : Shape).Idx → α) (h : (⟨2, ![1, 1]⟩ : Shape).ShapeCasts ⟨0, ![]⟩)
    (i : (⟨0, ![]⟩ : Shape).Idx) : shapeCast ⟨0, ![]⟩ x h i = x (ix2 (0 : Fin 1) (0 : Fin 1)) :=
  shapeCast_apply x h i _ (by
    have h0 : ((⟨0, ![]⟩ : Shape).rowMajor i).val = 0 := Shape.rowMajorPi_zero _ _
    rw [Shape.rowMajor_val_two, h0]
    rfl)

/-- The slice [0:1, o:o+1] of a [1, n] row holds the row's entry (0, o). -/
theorem slice_entry {n : ℕ} (A : (⟨2, ![1, n]⟩ : Shape).Idx → α) (o : ℕ) (ho : o < n)
    (h : (⟨2, ![1, n]⟩ : Shape).Slices ![0, o] ⟨2, ![1, 1]⟩) :
    extractStridedSlice ⟨2, ![1, 1]⟩ ![0, o] A h (ix2 (0 : Fin 1) (0 : Fin 1)) = A (ix2 (0 : Fin 1) ⟨o, ho⟩) :=
  extractStridedSlice_apply ![0, o] A h _ _ (fun a => match a with
    | ⟨0, _⟩ => by show (0 : ℕ) = 0 + 0; rfl
    | ⟨1, _⟩ => by show o = o + 0; rfl)

/-- Entry (0, o) of a [1, n] row as a scalar array. -/
theorem entry_as_scalar {n : ℕ} (A : (⟨2, ![1, n]⟩ : Shape).Idx → α) (o : ℕ) (ho : o < n)
    (h1 : (⟨2, ![1, n]⟩ : Shape).Slices ![0, o] ⟨2, ![1, 1]⟩) (h2 : (⟨2, ![1, 1]⟩ : Shape).ShapeCasts ⟨0, ![]⟩) :
    shapeCast ⟨0, ![]⟩ (extractStridedSlice ⟨2, ![1, 1]⟩ ![0, o] A h1) h2 = fun _ => A (ix2 (0 : Fin 1) ⟨o, ho⟩) :=
  funext fun i => (scalar_of_11 _ h2 i).trans (slice_entry A o ho h1)

end Cert.RowEntry
-- ==== Proof.KernelFinal.lean ====
/-
  The kernel's result.  After the region the host takes the four entries of the [1, 4] result array out as scalars
  (a slice [0:1, q:q+1] re-laid to rank 0, for q = 0, 1, 2, 3) and combines them by the scalar expression tail.  The
  result array holds the four totals, entry (0, q) the q-th, so the program's result is tail of the four totals:
  the loss of the argument arrays.

  The host lines are read off as one term over the memory the region leaves; that term is tail applied to four
  scalar arrays by definition, and tail itself is never opened: only its four operands are rewritten.
-/
import proofs.«103586_j22119081575125_2_alg».proof.Proof.KernelWriteBack
import proofs.«103586_j22119081575125_2_alg».proof.Proof.LibRowEntry
import Idealize.ShloMosaic.Lib.Pipeline.Value
import Idealize.ShloMosaic.Lib.StableHlo.Run
import Idealize.ShloMosaic.Lib.Tactic

noncomputable section

namespace Cert.KernelIdeal.Final

open Cert.KernelIdeal Cert.KernelIdeal.Gen Idealize.ShloMosaic Idealize.ShloMosaic.TcCoe Idealize.SL.Sem
open Idealize.ShloMosaic.ValueIdx Idealize.ShloMosaic.StableHlo
open Cert.KernelIdeal.Blocks Cert.KernelIdeal.Sum Cert.KernelIdeal.WriteBack
open Idealize.ShloMosaic.Pipeline (Dat)

variable (m : (ℓ : Loc nD τ sig) → Buf (Elt Ideal) ℓ) (ρ : Dev nD → PrngReg)

/-- The loss of core c's argument arrays. -/
abbrev lossOf (c : Dev nD) : FVec Ideal Cert.LossSpec.S_ .f32 :=
  Cert.LossSpec.loss (argP m c) (argY m c) (argQ m c) (argW m c)

/-- After the region the result array's reference holds the four totals. -/
theorem region_result (c : Dev nD) :
    Pipeline.withArrays (cfgs 0).spec c (V0 m c) (fun w => (dats m 0 c).arrAt w (cfgs 0).N) (Proc.devRef .tc main_v2)
      = sums m c :=
  (Pipeline.withArrays_arr spec0 launch0.win.arr_inj c _ _ 4).trans (final_sums m c)

/-- Each entry of the totals, taken out as a scalar array, is the corresponding total. -/
theorem entry_sq (c : Dev nD) (h1 : S1x4.Slices ![0, 0] S1x1) (h2 : S1x1.ShapeCasts Cert.KernelIdeal.S_) :
    shapeCast Cert.KernelIdeal.S_ (extractStridedSlice S1x1 ![0, 0] (sums m c) h1) h2
      = fun _ => Cert.LossSpec.total (Cert.LossSpec.sqRow (argP m c) (argY m c)) :=
  (Cert.RowEntry.entry_as_scalar (sums m c) 0 (by decide) h1 h2).trans (funext fun _ => acc_sq m c)
theorem entry_width (c : Dev nD) (h1 : S1x4.Slices ![0, 1] S1x1) (h2 : S1x1.ShapeCasts Cert.KernelIdeal.S_) :
    shapeCast Cert.KernelIdeal.S_ (extractStridedSlice S1x1 ![0, 1] (sums m c) h1) h2
      = fun _ => Cert.LossSpec.total (Cert.LossSpec.widthRow (argP m c)) :=
  (Cert.RowEntry.entry_as_scalar (sums m c) 1 (by decide) h1 h2).trans (funext fun _ => acc_width m c)
theorem entry_inv (c : Dev nD) (h1 : S1x4.Slices ![0, 2] S1x1) (h2 : S1x1.ShapeCasts Cert.KernelIdeal.S_) :
    shapeCast Cert.KernelIdeal.S_ (extractStridedSlice S1x1 ![0, 2] (sums m c) h1) h2
      = fun _ => Cert.LossSpec.total (Cert.LossSpec.invRow (argP m c)) :=
  (Cert.RowEntry.entry_as_scalar (sums m c) 2 (by decide) h1 h2).trans (funext fun _ => acc_inv m c)
theorem entry_dir (c : Dev nD) (h1 : S1x4.Slices ![0, 3] S1x1) (h2 : S1x1.ShapeCasts Cert.KernelIdeal.S_) :
    shapeCast Cert.KernelIdeal.S_ (extractStridedSlice S1x1 ![0, 3] (sums m c) h1) h2
      = fun _ => Cert.LossSpec.total (Cert.LossSpec.dirRow (argP m c) (argQ m c) (argW m c)) :=
  (Cert.RowEntry.entry_as_scalar (sums m c) 3 (by decide) h1 h2).trans (funext fun _ => acc_dir m c)

/-- THE RESULT of the host lines after the region is the loss of the arguments. -/
theorem tail_value (c : Dev nD) :
    Pipeline.afterTail₀ cfgs (dats m) 0 (V0 m) [hostOps1] c main_v21 = lossOf m c := by
  unfold Pipeline.afterTail₀
  simp only [List.flatten_cons, List.flatten_nil, List.append_nil]
  after_results_simp
  rw [region_result m c]
  have key := congr (congr (congr (congrArg (Cert.LossSpec.tail (F := Ideal))
    (entry_sq m c slices_S1x4_S1x1_0_0 shapeCasts_S1x1_S_)) (entry_width m c slices_S1x4_S1x1_0_1 shapeCasts_S1x1_S_))
    (entry_inv m c slices_S1x4_S1x1_0_2 shapeCasts_S1x1_S_)) (entry_dir m c slices_S1x4_S1x1_0_3 shapeCasts_S1x1_S_)
  exact key

/-- THE KERNEL'S RUN: every weakly fair execution terminates with the result at the loss of the arguments and the
    arguments unchanged. -/
theorem run : θ_run defs (onTc (τ := τ) (main (F := Ideal))) ⟨m, fun _ => 0, ρ⟩ fun r => ∀ c : Dev nD,
      r.2.mem ((c.tc : Thread nD τ).loc main_v21) = lossOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v21 (Pipeline.mem_restRefs_of main_v21 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefLoss.lean ====
/-
  The reference computes the loss of its arguments.

  Its three means are each "zero word + sum over the [8388608, 1] index set" of a pointwise term, divided later by
  the row count, and its direction penalty is "zero word + sum over the [8388608] index set".  An [n, 1] index set is
  its n rows and an [n] index set its n positions, so each sum is a sum over the rows k < 8388608; and at row k each
  pointwise term is the specification's: the two column slices of the prediction read entries (k, 0) and (k, 1),
  the constants broadcast to every row, the columns re-laid as vectors read entry (k, 0), and relu is max with the
  zero word.  The scalar expression that combines the four sums is the specification's tail, word for word.
-/
import proofs.«103586_j22119081575125_2_alg».proof.Proof.Gen.ReferenceIdeal.Read
import proofs.«103586_j22119081575125_2_alg».proof.Proof.LossSpec

noncomputable section

namespace Cert.ReferenceIdeal.RefLoss

open Cert.ReferenceIdeal Cert.ReferenceIdeal.Gen Cert.ReferenceIdeal.Read Idealize.ShloMosaic Idealize.ShloMosaic.ValueIdx
open Cert.LossSpec
open scoped BigOperators

/-- The lower-end slice reads column 0 and the upper-end slice column 1, at the same row. -/
theorem lower_idx (k : Fin 8388608) : idx_main_v0 (ix2 k (0 : Fin 1)) = ix2 k (0 : Fin 2) :=
  funext fun a => Fin.ext (by match a with | ⟨0, _⟩ => rfl | ⟨1, _⟩ => rfl)
theorem upper_idx (k : Fin 8388608) : idx_main_v1 (ix2 k (0 : Fin 1)) = ix2 k (1 : Fin 2) :=
  funext fun a => Fin.ext (by match a with | ⟨0, _⟩ => rfl | ⟨1, _⟩ => rfl)
/-- A column re-laid as a vector reads, at position k, the column's entry (k, 0). -/
theorem lower_vec_idx (k : Fin 8388608) : idx_main_v17 (ix1 k) = ix2 k (0 : Fin 1) :=
  funext fun a => Fin.ext (by match a with | ⟨0, _⟩ => exact Nat.div_one _ | ⟨1, _⟩ => rfl)
theorem upper_vec_idx (k : Fin 8388608) : idx_main_v18 (ix1 k) = ix2 k (0 : Fin 1) :=
  funext fun a => Fin.ext (by match a with | ⟨0, _⟩ => exact Nat.div_one _ | ⟨1, _⟩ => rfl)

variable (x0 : (⟨S8388608x2, .f32⟩ : BufTy).Contents (Elt Ideal)) (x1 : (⟨S8388608x1, .f32⟩ : BufTy).Contents (Elt Ideal))
  (x2 : (⟨S8388608, .f32⟩ : BufTy).Contents (Elt Ideal)) (x3 : (⟨S8388608, .i32⟩ : BufTy).Contents (Elt Ideal))

/-- The sum of squared distances. -/
theorem ref_sq : val_main_v7 (F := Ideal) x0 x1 = fun _ => total (sqRow x0 x1) := by
  funext i
  rw [val_main_v7_apply, val_main_cst_0_apply, sum_col]
  refine congrArg (zero + ·) (Finset.sum_congr rfl fun k _ => ?_)
  rw [sqRow_val, val_main_v6_apply, val_main_v5_apply, val_main_v4_apply, val_main_v3_apply, val_main_cst_apply,
    val_main_v2_apply, val_main_v0_apply, val_main_v1_apply, lower_idx, upper_idx]
  rfl

/-- The sum of widths. -/
theorem ref_width : val_main_v10 (F := Ideal) x0 = fun _ => total (widthRow x0) := by
  funext i
  rw [val_main_v10_apply, val_main_cst_2_apply, sum_col]
  refine congrArg (zero + ·) (Finset.sum_congr rfl fun k _ => ?_)
  rw [widthRow_val, val_main_v9_apply, val_main_v0_apply, val_main_v1_apply, lower_idx, upper_idx]
  rfl

/-- The sum of inversions. -/
theorem ref_inv : val_main_v15 (F := Ideal) x0 = fun _ => total (invRow x0) := by
  funext i
  rw [val_main_v15_apply, val_main_cst_5_apply, sum_col]
  refine congrArg (zero + ·) (Finset.sum_congr rfl fun k _ => ?_)
  rw [invRow_val, val_main_v14_apply, val_main_v13_apply, val_main_cst_4_apply, val_main_v12_apply, val_main_v0_apply,
    val_main_v1_apply, lower_idx, upper_idx]
  rfl

/-- The sum of one-sided distances. -/
theorem ref_dir : val_main_v29 (F := Ideal) x0 x2 x3 = fun _ => total (dirRow x0 x2 x3) := by
  funext i
  rw [val_main_v29_apply, val_main_cst_8_apply, sum_vec]
  refine congrArg (zero + ·) (Finset.sum_congr rfl fun k _ => ?_)
  rw [dirRow_val, val_main_v28_apply, val_main_v23_apply, val_main_v22_apply, val_main_c_apply, val_main_v25_apply,
    val_main_v27_apply, val_main_call0_v0_apply, val_main_call0_cst_apply, val_main_call1_v0_apply,
    val_main_call1_cst_apply, val_main_v24_apply, val_main_v26_apply, val_main_v21_apply, val_main_v20_apply,
    val_main_cst_7_apply, val_main_v19_apply, val_main_v17_apply, val_main_v18_apply, val_main_v0_apply,
    val_main_v1_apply, lower_vec_idx, upper_vec_idx, lower_idx, upper_idx]
  rfl

/-- THE REFERENCE'S RESULT is the loss of its arguments. -/
theorem result_eq : val_main_v37 (F := Ideal) x0 x1 x2 x3 = loss x0 x1 x2 x3 := by
  have e : val_main_v37 (F := Ideal) x0 x1 x2 x3
      = tail (F := Ideal) (val_main_v7 (F := Ideal) x0 x1) (val_main_v10 (F := Ideal) x0) (val_main_v15 (F := Ideal) x0)
          (val_main_v29 (F := Ideal) x0 x2 x3) := rfl
  rw [e, ref_sq, ref_width, ref_inv, ref_dir]
  rfl

end Cert.ReferenceIdeal.RefLoss

end
-- ==== Proof.lean ====
/- The proof of the claim: the kernel and its idealization run, leave their arguments unchanged, and at the exact
   reading compute the same scalar as the reference.

   The quantity is an interval-regression loss over 8388608 rows.  With l, u the two columns of the prediction, c
   the centre (l + u) / 2, y the target, p the previous value and v an integer flag, four per-row terms are summed
   over all rows — (y - c)², u - l, max (l - u) 0, and max (c - p) 0 or max (p - c) 0 according to v = 0 — and the four
   totals are combined by one fixed scalar expression.

   The kernel walks a grid of 2048 points; at each it adds, into one [1, 4] block that stays in place, the sums of
   the four terms over that point's 4096 rows, starting from the zero block at the first point; the block is
   written to the result array after the last point, and the host then takes the four entries out and combines
   them.  The reference sums each term over all rows at once and combines the sums by the same expression, word
   for word.  So the two differ only in how the sums are grouped, and a sum over 2048 * 4096 consecutive rows is
   the sum over the 2048 blocks of the sums over each block's 4096 rows: commutativity and associativity of +,
   which hold on the extended reals, so no entry has to be finite and the precondition is not used.

   Proof/LossSpec.lean states the loss as one function of the argument arrays and the regrouping law;
   Proof/KernelRow.lean reads one point's contribution at an entry; Proof/KernelCases.lean what each control case
   leaves in the block; Proof/KernelBlocks.lean the input blocks as rows of the arguments; Proof/KernelSum.lean the
   running sums across the grid; Proof/KernelWriteBack.lean the result array after the run; Proof/KernelFinal.lean
   the host lines after the region and the kernel's run; Proof/RefLoss.lean that the reference computes the loss.
   The idealization rewrote no operation, so the kernel's idealization is its own text at the exact reading. -/
import proofs.«103586_j22119081575125_2_alg».proof.Defs
import proofs.«103586_j22119081575125_2_alg».proof.Proof.Gen.Kernel
import proofs.«103586_j22119081575125_2_alg».proof.Proof.Gen.Kernel.Skeleton
import proofs.«103586_j22119081575125_2_alg».proof.Proof.Gen.Kernel.Launch
import proofs.«103586_j22119081575125_2_alg».proof.Proof.Gen.Kernel.Points
import proofs.«103586_j22119081575125_2_alg».proof.Proof.Gen.Kernel.Frame
import proofs.«103586_j22119081575125_2_alg».proof.Proof.Gen.KernelIdeal
import proofs.«103586_j22119081575125_2_alg».proof.Proof.Gen.KernelIdeal.Skeleton
import proofs.«103586_j22119081575125_2_alg».proof.Proof.Gen.KernelIdeal.Launch
import proofs.«103586_j22119081575125_2_alg».proof.Proof.Gen.KernelIdeal.Points
import proofs.«103586_j22119081575125_2_alg».proof.Proof.Gen.KernelIdeal.Frame
import proofs.«103586_j22119081575125_2_alg».proof.Proof.Gen.ReferenceIdeal
import proofs.«103586_j22119081575125_2_alg».proof.Proof.Gen.ReferenceIdeal.Run
import proofs.«103586_j22119081575125_2_alg».proof.Proof.Gen.ReferenceIdeal.Read
import proofs.«103586_j22119081575125_2_alg».proof.Proof.Gen.Pre_finite_inputs
import proofs.«103586_j22119081575125_2_alg».proof.Proof.KernelFinal
import proofs.«103586_j22119081575125_2_alg».proof.Proof.RefLoss
import Idealize.ShloMosaic.Adequacy
import Idealize.ShloMosaic.Init

noncomputable section

namespace Cert.Proof

open Idealize.ShloMosaic Idealize.SL.Sem

/-- The kernel, as printed, runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the exact reading the kernel ends with its result at the loss of its arguments, and the reference, run on
    arguments that agree, ends with its result at the loss of those: the same extended real. -/
theorem algebraic : Cert.algebraic_KernelIdeal_ReferenceIdeal := by
  intro m ρ m' ρ' _ hagree
  refine ⟨fun c => Cert.KernelIdeal.Final.lossOf m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Final.lossOf m c
  refine (Cert.ReferenceIdeal.Read.val_main_v37_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))).trans ?_
  rw [Cert.ReferenceIdeal.RefLoss.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
